-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x1024 : Shape := ⟨3, ![256, 512, 1024]⟩
abbrev S_ : Shape := ⟨0, ![]⟩

class Facts : Prop where
  bcast_S_S256x512x1024 : S_.BroadcastsInDim S256x512x1024 (![] : Fin 0 → Fin S256x512x1024.rank)
  reducesTo_S256x512x1024_S_d0_1_2 : S256x512x1024.ReducesTo [0, 1, 2] S_
  h_S_ : 0 < S_.numel

variable [Facts]

def fn {F : FTy → Type} [FloatOps F] (main_arg0 : FVec F S256x512x1024 .f32) : IVec S_ 1 :=
  let main_v0 : FVec F S256x512x1024 .f32 := Host.absf main_arg0
  let main_cst : FVec F S_ .f32 := constant S_ .f32 0x7F800000#32
  let main_v1 : FVec F S256x512x1024 .f32 := broadcastInDim S256x512x1024 ![] bcast_S_S256x512x1024 main_cst
  let main_v2 : IVec S256x512x1024 1 := cmpf .olt main_v0 main_v1
  let main_c : IVec S_ 1 := constantI S_ 1 1#1
  let main_v3 : IVec S_ 1 := (fun x v => Host.reduce IntOp.andi x v reducesTo_S256x512x1024_S_d0_1_2 h_S_) main_v2 main_c
  main_v3
-- ==== Kernel.lean ====
abbrev S256x512x1024 : Shape := ⟨3, ![256, 512, 1024]⟩
abbrev S2x512x1024 : Shape := ⟨3, ![2, 512, 1024]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S256x512x1024, .f32⟩
  | .hbm, ⟨1, _⟩ => ⟨S256x512x1024, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1024, .f32⟩
  | .local _ .vmem, ⟨3, _⟩ => ⟨S2x512x1024, .f32⟩
  | _, _ => ⟨S256x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x512x1024_S2x512x1024_0_0_0 : ∀ a, (![0, 0, 0] : Fin 3 → Nat) a + S2x512x1024.size a ≤ S2x512x1024.size a
  h_S2x512x1024 : 0 < S2x512x1024.numel
  reduces_S2x512x1024_S2x512 : S2x512x1024.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  broadcasts_S2x1x1_S2x512x1024 : S2x1x1.Broadcasts S2x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S256x512x1024.size a
  hwx0_0 : ∀ i : grid0.Coords, EltTy.bits .f32 = 32 ∨ (Rect.block (s := S256x512x1024) S2x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1024.size a ≤ S256x512x1024.size a
  hwx0_1 : ∀ i : grid0.Coords, EltTy.bits .f32 = 32 ∨ (Rect.block (s := S256x512x1024) S2x512x1024.size (cc0_transform_1 i) (hinb0_1 i)).WholeWords (EltTy.packing .f32)

variable [Facts₀]

abbrev win0_0 : Pipeline.Window sig grid0 :=
  Pipeline.Window.ofSpec (Memref.whole main_arg0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x512x1024 : Shape := ⟨3, ![256, 512, 1024]⟩
abbrev S_ : Shape := ⟨0, ![]⟩
abbrev S256 : Shape := ⟨1, ![256]⟩
abbrev S256x1x1 : Shape := ⟨3, ![256, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S256x512x1024, .f32⟩
  | .hbm, ⟨1, _⟩ => ⟨S_, .f32⟩
  | .hbm, ⟨2, _⟩ => ⟨S256, .f32⟩
  | .hbm, ⟨3, _⟩ => ⟨S256x1x1, .f32⟩
  | .hbm, ⟨4, _⟩ => ⟨S_, .f32⟩
  | .hbm, ⟨5, _⟩ => ⟨S256, .f32⟩
  | .hbm, ⟨6, _⟩ => ⟨S256x1x1, .f32⟩
  | .hbm, ⟨7, _⟩ => ⟨S256x1x1, .f32⟩
  | .hbm, ⟨8, _⟩ => ⟨S256x512x1024, .f32⟩
  | .hbm, ⟨9, _⟩ => ⟨S256x512x1024, .f32⟩
  | .hbm, ⟨10, _⟩ => ⟨S_, .f32⟩
  | .hbm, ⟨11, _⟩ => ⟨S256x512x1024, .f32⟩
  | .hbm, ⟨12, _⟩ => ⟨S256x512x1024, .f32⟩
  | .hbm, ⟨13, _⟩ => ⟨S256x512x1024, .f32⟩
  | .hbm, ⟨14, _⟩ => ⟨S256x512x1024, .f32⟩
  | .hbm, ⟨15, _⟩ => ⟨S_, .f32⟩
  | .hbm, ⟨16, _⟩ => ⟨S256x512x1024, .f32⟩
  | .hbm, ⟨17, _⟩ => ⟨S256x512x1024, .f32⟩
  | .hbm, ⟨18, _⟩ => ⟨S256x512x1024, .f32⟩
  | .hbm, ⟨19, _⟩ => ⟨S_, .f32⟩
  | .hbm, ⟨20, _⟩ => ⟨S256x512x1024, .f32⟩
  | .hbm, ⟨21, _⟩ => ⟨S256x512x1024, .f32⟩
  | .hbm, ⟨22, _⟩ => ⟨S_, .f32⟩
  | .hbm, ⟨23, _⟩ => ⟨S256x512x1024, .f32⟩
  | .hbm, ⟨24, _⟩ => ⟨S256x512x1024, .f32⟩
  | .hbm, ⟨25, _⟩ => ⟨S_, .f32⟩
  | .hbm, ⟨26, _⟩ => ⟨S256x512x1024, .f32⟩
  | .hbm, ⟨27, _⟩ => ⟨S256x512x1024, .f32⟩
  | .hbm, ⟨28, _⟩ => ⟨S256x512x1024, .f32⟩
  | .hbm, ⟨29, _⟩ => ⟨S256x512x1024, .f32⟩
  | .hbm, ⟨30, _⟩ => ⟨S_, .f32⟩
  | .hbm, ⟨31, _⟩ => ⟨S256x512x1024, .f32⟩
  | .hbm, ⟨32, _⟩ => ⟨S256x512x1024, .f32⟩
  | .hbm, ⟨33, _⟩ => ⟨S256x512x1024, .f32⟩
  | .hbm, ⟨34, _⟩ => ⟨S256x512x1024, .f32⟩
  | .hbm, ⟨35, _⟩ => ⟨S_, .f32⟩
  | .hbm, ⟨36, _⟩ => ⟨S256x512x1024, .f32⟩
  | .hbm, ⟨37, _⟩ => ⟨S256x512x1024, .f32⟩
  | _, _ => ⟨S256x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_cst : Ref sig .tc := ⟨.hbm, 35, rfl⟩
abbrev main_call1_v0 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S256x512x1024_S256_d1_2 : S256x512x1024.ReducesTo [1, 2] S256
  h_S_ : 0 < S_.numel
  bcast_S256_S256x1x1_0 : S256.BroadcastsInDim S256x1x1 (![0] : Fin 1 → Fin S256x1x1.rank)
  bcast_S256x1x1_S256x512x1024_0_1_2 : S256x1x1.BroadcastsInDim S256x512x1024 (![0, 1, 2] : Fin 3 → Fin S256x512x1024.rank)
  bcast_S_S256x512x1024 : S_.BroadcastsInDim S256x512x1024 (![] : Fin 0 → Fin S256x512x1024.rank)

variable [Facts₀]

class Facts : Prop extends Facts₀ where

variable [Facts]
-- ==== Proof.LibFoldExtrema.lean ====
/-
  Maxima and minima of finitely many extended reals, read off the reductions that compute them.

  On the extended reals `maximumf` is `max` and the f32 pattern of -∞ is the bottom element, so a reduction with
  `maximumf` started from that pattern is the SUPREMUM of the entries it reduces: the fold of `max` from `⊥` over the
  finite set of source indices that drop to the result index, in any order. Dually a reduction with `minimumf` started
  from the pattern of +∞ is the INFIMUM of those entries. This holds for a vector reduction over any list of axes and
  for a one-operand host reduction alike; both are stated here over the set of indices `drop` sends to the result index.
-/
import Idealize.ShloMosaic.PureOps.Ideal.Laws

namespace Cert.FoldExtrema

open Idealize.ShloMosaic

/-- The f32 pattern of -∞ is the least extended real. -/
theorem ofBits_neg_inf : Ideal.ofBits .f32 0xFF800000#32 = (⊥ : EReal) := by simp [Ideal.ofBits, Ideal.ieee]

/-- The f32 pattern of +∞ is the greatest extended real. -/
theorem ofBits_pos_inf : Ideal.ofBits .f32 0x7F800000#32 = (⊤ : EReal) := by simp [Ideal.ofBits, Ideal.ieee]

/-- Folding `max` from the least element over a finite set is taking the supremum over it. -/
theorem fold_max_bot {ι : Type} (s : Finset ι) (f : ι → EReal) : s.fold max ⊥ f = s.sup f := rfl

/-- Folding `min` from the greatest element over a finite set is taking the infimum over it. -/
theorem fold_min_top {ι : Type} (s : Finset ι) (f : ι → EReal) : s.fold min ⊤ f = s.inf f := rfl

variable {s t : Shape} {axes : List (Fin s.rank)}

/-- A vector `maximumf` reduction from -∞, on the extended reals: at `j` the supremum of the source over the indices
    that drop to `j`. -/
theorem multiReduction_max_eq_sup (src : FVec Ideal s .f32) (h : s.Reduces axes t) (hφ : FKind.Formats .f32)
    (hacc : (0xFF800000#32 : BitVec 32) = FKind.maximumf.neutral .f32 hφ) (j : t.Idx) :
    multiReduction .maximumf axes t src 0xFF800000#32 h hφ hacc j
      = (Finset.univ.filter fun i => h.drop i = j).sup src := by
  rw [multiReduction_maximumf_eq_fold]
  show Finset.fold max (Ideal.ofBits .f32 0xFF800000#32) src _ = _
  rw [ofBits_neg_inf, fold_max_bot]

/-- A vector `minimumf` reduction from +∞, on the extended reals: at `j` the infimum of the source over the indices
    that drop to `j`. -/
theorem multiReduction_min_eq_inf (src : FVec Ideal s .f32) (h : s.Reduces axes t) (hφ : FKind.Formats .f32)
    (hacc : (0x7F800000#32 : BitVec 32) = FKind.minimumf.neutral .f32 hφ) (j : t.Idx) :
    multiReduction .minimumf axes t src 0x7F800000#32 h hφ hacc j
      = (Finset.univ.filter fun i => h.drop i = j).inf src := by
  rw [multiReduction_minimumf_eq_fold]
  show Finset.fold min (Ideal.ofBits .f32 0x7F800000#32) src _ = _
  rw [ofBits_pos_inf, fold_min_top]

/-- A host reduction with `maximumf` whose initial value is the constant -∞, on the extended reals: at `j` the
    supremum of the operand over the indices that drop to `j`. -/
theorem hostReduce_max_eq_sup {u : Shape} (x : s.Idx → Ideal .f32) (h : s.ReducesTo axes t) (hu : 0 < u.numel)
    (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold max (Ideal.ofBits .f32 0xFF800000#32) x _ = _
  rw [ofBits_neg_inf, fold_max_bot]

/-- A host reduction with `minimumf` whose initial value is the constant +∞, on the extended reals: at `j` the
    infimum of the operand over the indices that drop to `j`. -/
theorem hostReduce_min_eq_inf {u : Shape} (x : s.Idx → Ideal .f32) (h : s.ReducesTo axes t) (hu : 0 < u.numel)
    (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold min (Ideal.ofBits .f32 0x7F800000#32) x _ = _
  rw [ofBits_pos_inf, fold_min_top]

end Cert.FoldExtrema
-- ==== Proof.QuantSpec.lean ====
/-
  The function both programs compute, on the extended reals.

  The array has 256 slabs (the entries sharing a leading coordinate), each of 512 × 1024 entries. Write `lo` and `hi`
  for the least and the greatest entry of a slab. Every entry `v` of the slab is mapped to

      max ( ((1000 · (round (254 · (v - lo) / (hi - lo) - 127) / 1000) + 127) · (hi - lo)) / 254 + lo , 0 )

  with the exact operations of the extended reals (`round` to the nearest integer, ties to even; the quotient the total
  division of the ideal instance; the four constants the exact values of their f32 patterns). The slab's extrema are a
  supremum and an infimum over a finite set, so no order of evaluation enters.
-/
import Idealize.ShloMosaic.PureOps.Ideal

noncomputable section

namespace Cert.QuantSpec

open Idealize.ShloMosaic

/-- What one entry `v` becomes, given the least (`lo`) and the greatest (`hi`) entry of its slab: scaled to the 255
    levels -127 … 127 of the slab's range, rounded, scaled back, and clipped below at zero. -/
def requant (v lo hi : EReal) : EReal :=
  max
    (Ideal.div
        ((Ideal.ofBits .f32 0x447A0000#32
              * Ideal.div
                  (Ideal.liftRound Ideal.roundHalfEven
                    (Ideal.div (Ideal.ofBits .f32 0x437E0000#32 * (v - lo)) (hi - lo) - Ideal.ofBits .f32 0x42FE0000#32))
                  (Ideal.ofBits .f32 0x447A0000#32)
            + Ideal.ofBits .f32 0x42FE0000#32)
          * (hi - lo))
        (Ideal.ofBits .f32 0x437E0000#32)
      + lo)
    (Ideal.ofBits .f32 0x00000000#32)

variable {n0 n1 n2 : Nat}

/-- The greatest entry of slab `r`: the supremum of `x` over the indices whose leading coordinate is `r`. -/
@[irreducible] def slabSup (x : (⟨3, ![n0, n1, n2]⟩ : Shape).Idx → EReal) (r : Nat) : EReal :=
  (Finset.univ.filter fun i : (⟨3, ![n0, n1, n2]⟩ : Shape).Idx => (i 0).val = r).sup x

/-- The least entry of slab `r`: the infimum of `x` over the indices whose leading coordinate is `r`. -/
@[irreducible] def slabInf (x : (⟨3, ![n0, n1, n2]⟩ : Shape).Idx → EReal) (r : Nat) : EReal :=
  (Finset.univ.filter fun i : (⟨3, ![n0, n1, n2]⟩ : Shape).Idx => (i 0).val = r).inf x

/-- The result array as one function of the argument array: each entry requantized against its own slab's extrema. -/
def result (x : (⟨3, ![256, 512, 1024]⟩ : Shape).Idx → EReal) : (⟨3, ![256, 512, 1024]⟩ : Shape).Idx → EReal :=
  fun i => requant (x i) (slabInf x (i 0).val) (slabSup x (i 0).val)

/-- An entry of slab `r` is at most the slab's greatest entry. -/
theorem le_slabSup (x : (⟨3, ![n0, n1, n2]⟩ : Shape).Idx → EReal) (r : Nat) (i : (⟨3, ![n0, n1, n2]⟩ : Shape).Idx)
    (hi : (i 0).val = r) : x i ≤ slabSup x r := by
  unfold slabSup
  exact Finset.le_sup (f := x) (Finset.mem_filter.mpr ⟨Finset.mem_univ i, hi⟩)

/-- A bound of every entry of slab `r` bounds the slab's greatest entry. -/
theorem slabSup_le (x : (⟨3, ![n0, n1, n2]⟩ : Shape).Idx → EReal) (r : Nat) (b : EReal)
    (h : ∀ i : (⟨3, ![n0, n1, n2]⟩ : Shape).Idx, (i 0).val = r → x i ≤ b) : slabSup x r ≤ b := by
  unfold slabSup
  exact Finset.sup_le fun i hi => h i (Finset.mem_filter.mp hi).2

/-- The slab's least entry is at most each of its entries. -/
theorem slabInf_le (x : (⟨3, ![n0, n1, n2]⟩ : Shape).Idx → EReal) (r : Nat) (i : (⟨3, ![n0, n1, n2]⟩ : Shape).Idx)
    (hi : (i 0).val = r) : slabInf x r ≤ x i := by
  unfold slabInf
  exact Finset.inf_le (f := x) (Finset.mem_filter.mpr ⟨Finset.mem_univ i, hi⟩)

/-- A lower bound of every entry of slab `r` is below the slab's least entry. -/
theorem le_slabInf (x : (⟨3, ![n0, n1, n2]⟩ : Shape).Idx → EReal) (r : Nat) (b : EReal)
    (h : ∀ i : (⟨3, ![n0, n1, n2]⟩ : Shape).Idx, (i 0).val = r → b ≤ x i) : b ≤ slabInf x r := by
  unfold slabInf
  exact Finset.le_inf fun i hi => h i (Finset.mem_filter.mp hi).2

end Cert.QuantSpec

end
-- ==== Proof.KernelSlabs.lean ====
/-
  The kernel's two-step extrema are the slab's extrema.

  A block has two slabs of 512 × 1024 entries. The body takes the greatest entry of a slab in two steps: first the
  greatest entry of each of its 512 lines (the supremum over the last coordinate), then the greatest of those 512 line
  maxima. A supremum of suprema over the parts of a partition is the supremum over the whole: every entry of the slab is
  below its line's maximum, which is below the maximum of the line maxima; and every line maximum is a supremum of entries
  of the slab. The same holds for the least entry with infima.
-/
import proofs.«174870_j55671366090843_1_alg».proof.Proof.Gen.KernelIdeal
import proofs.«174870_j55671366090843_1_alg».proof.Proof.LibFoldExtrema
import proofs.«174870_j55671366090843_1_alg».proof.Proof.QuantSpec
import Idealize.ShloMosaic.Lib.Pipeline.Value

noncomputable section

namespace Cert.KernelIdeal.Slabs

open Cert.KernelIdeal Cert.KernelIdeal.Gen Idealize.ShloMosaic Cert.QuantSpec Cert.FoldExtrema

/-- The line (slab, row) an entry of the block lies on. -/
abbrev lineOf (y : S2x512x1024.Idx) : S2x512.Idx := fun a => match a with
  | ⟨0, _⟩ => ⟨(y 0).val, (y 0).isLt⟩
  | ⟨1, _⟩ => ⟨(y 1).val, (y 1).isLt⟩

/-- A line as an index of the column of line extrema (trailing unit axis). -/
abbrev colOf (k : S2x512.Idx) : S2x512x1.Idx := fun a => match a with
  | ⟨0, _⟩ => ⟨(k 0).val, (k 0).isLt⟩
  | ⟨1, _⟩ => ⟨(k 1).val, (k 1).isLt⟩
  | ⟨2, _⟩ => ⟨0, Nat.one_pos⟩

/-- Dropping the last axis of a block index leaves its line. -/
theorem drop_last (y : S2x512x1024.Idx) : reduces_S2x512x1024_S2x512.drop y = lineOf y := by
  funext a; apply Fin.ext
  match a with
  | ⟨0, _⟩ => exact reduces_S2x512x1024_S2x512.drop_apply_val_of_eq y 0 0
  | ⟨1, _⟩ => exact reduces_S2x512x1024_S2x512.drop_apply_val_of_eq y 1 1

/-- Dropping the middle axis of a column index keeps the slab coordinate. -/
theorem drop_mid_zero (i : S2x512x1.Idx) : (reduces_S2x512x1_S2x1.drop i 0).val = (i 0).val :=
  reduces_S2x512x1_S2x1.drop_apply_val_of_eq i 0 0

/-- The column of line values read at a column index is the line value of its line. -/
theorem column_apply (v : S2x512.Idx → EReal) (i : S2x512x1.Idx) (k : S2x512.Idx) (h0 : (k 0).val = (i 0).val)
    (h1 : (k 1).val = (i 1).val) : shapeCast S2x512x1 v shapeCasts_S2x512_S2x512x1 i = v k := by
  refine shapeCast_apply v _ i k ?_
  rw [Shape.rowMajor_val_two, Shape.rowMajor_val_three]
  have h2 : (i 2).val < 1 := (i 2).isLt
  show (k 0).val * 512 + (k 1).val = ((i 0).val * 512 + (i 1).val) * 1 + (i 2).val
  omega

/-- The greatest of a slab's line maxima is the slab's greatest entry. -/
theorem max_of_line_maxima (P0 : S2x512x1024.Idx → EReal) (j : S2x1.Idx) :
    multiReduction .maximumf [1] S2x1 (shapeCast S2x512x1 (multiReduction (F := Ideal) .maximumf [2] S2x512 P0 0xFF800000#32 reduces_S2x512x1024_S2x512 (.inl rfl) rfl) shapeCasts_S2x512_S2x512x1) 0xFF800000#32 reduces_S2x512x1_S2x1 (.inl rfl) rfl j
      = slabSup P0 (j 0).val := by
  refine (multiReduction_max_eq_sup _ _ _ _ j).trans ?_
  apply le_antisymm
  · refine Finset.sup_le fun i hi => ?_
    have hij : reduces_S2x512x1_S2x1.drop i = j := (Finset.mem_filter.mp hi).2
    have h0 : (i 0).val = (j 0).val := by rw [← hij]; exact (drop_mid_zero i).symm
    refine le_of_eq_of_le ((column_apply _ i (fun a => match a with | ⟨0, _⟩ => ⟨(i 0).val, (i 0).isLt⟩ | ⟨1, _⟩ => ⟨(i 1).val, (i 1).isLt⟩) rfl rfl).trans
      (multiReduction_max_eq_sup P0 _ _ _ _)) ?_
    refine Finset.sup_le fun y hy => le_slabSup P0 _ y ?_
    have hy' := (Finset.mem_filter.mp hy).2
    rw [drop_last] at hy'
    have := congrArg (fun k : S2x512.Idx => (k 0).val) hy'
    exact this.trans h0
  · refine slabSup_le P0 _ _ fun y hy => ?_
    have a1 : P0 y ≤ multiReduction (F := Ideal) .maximumf [2] S2x512 P0 0xFF800000#32 reduces_S2x512x1024_S2x512 (.inl rfl) rfl (lineOf y) :=
      le_of_le_of_eq (Finset.le_sup (f := P0) (Finset.mem_filter.mpr ⟨Finset.mem_univ y, drop_last y⟩))
        (multiReduction_max_eq_sup P0 _ _ _ (lineOf y)).symm
    refine a1.trans ?_
    refine le_of_eq_of_le (column_apply _ (colOf (lineOf y)) (lineOf y) rfl rfl).symm ?_
    refine Finset.le_sup (f := shapeCast S2x512x1 _ shapeCasts_S2x512_S2x512x1) (Finset.mem_filter.mpr ⟨Finset.mem_univ _, ?_⟩)
    funext a; apply Fin.ext
    match a with
    | ⟨0, _⟩ => exact (drop_mid_zero _).trans hy
    | ⟨1, _⟩ =>
      have h1 : (j 1).val < 1 := (j 1).isLt
      have h2 : (reduces_S2x512x1_S2x1.drop (colOf (lineOf y)) 1).val < 1 := (reduces_S2x512x1_S2x1.drop (colOf (lineOf y)) 1).isLt
      show (reduces_S2x512x1_S2x1.drop (colOf (lineOf y)) 1).val = (j 1).val
      omega

/-- The least of a slab's line minima is the slab's least entry. -/
theorem min_of_line_minima (P0 : S2x512x1024.Idx → EReal) (j : S2x1.Idx) :
    multiReduction .minimumf [1] S2x1 (shapeCast S2x512x1 (multiReduction (F := Ideal) .minimumf [2] S2x512 P0 0x7F800000#32 reduces_S2x512x1024_S2x512 (.inl rfl) rfl) shapeCasts_S2x512_S2x512x1) 0x7F800000#32 reduces_S2x512x1_S2x1 (.inl rfl) rfl j
      = slabInf P0 (j 0).val := by
  refine (multiReduction_min_eq_inf _ _ _ _ j).trans ?_
  apply le_antisymm
  · refine le_slabInf P0 _ _ fun y hy => ?_
    have a1 : multiReduction (F := Ideal) .minimumf [2] S2x512 P0 0x7F800000#32 reduces_S2x512x1024_S2x512 (.inl rfl) rfl (lineOf y) ≤ P0 y :=
      le_of_eq_of_le (multiReduction_min_eq_inf P0 _ _ _ (lineOf y))
        (Finset.inf_le (f := P0) (Finset.mem_filter.mpr ⟨Finset.mem_univ y, drop_last y⟩))
    refine le_trans ?_ a1
    refine le_of_le_of_eq ?_ (column_apply _ (colOf (lineOf y)) (lineOf y) rfl rfl)
    refine Finset.inf_le (f := shapeCast S2x512x1 _ shapeCasts_S2x512_S2x512x1) (Finset.mem_filter.mpr ⟨Finset.mem_univ _, ?_⟩)
    funext a; apply Fin.ext
    match a with
    | ⟨0, _⟩ => exact (drop_mid_zero _).trans hy
    | ⟨1, _⟩ =>
      have h1 : (j 1).val < 1 := (j 1).isLt
      have h2 : (reduces_S2x512x1_S2x1.drop (colOf (lineOf y)) 1).val < 1 := (reduces_S2x512x1_S2x1.drop (colOf (lineOf y)) 1).isLt
      show (reduces_S2x512x1_S2x1.drop (colOf (lineOf y)) 1).val = (j 1).val
      omega
  · refine Finset.le_inf fun i hi => ?_
    have hij : reduces_S2x512x1_S2x1.drop i = j := (Finset.mem_filter.mp hi).2
    have h0 : (i 0).val = (j 0).val := by rw [← hij]; exact (drop_mid_zero i).symm
    refine le_of_le_of_eq ?_ ((column_apply _ i (fun a => match a with | ⟨0, _⟩ => ⟨(i 0).val, (i 0).isLt⟩ | ⟨1, _⟩ => ⟨(i 1).val, (i 1).isLt⟩) rfl rfl).trans
      (multiReduction_min_eq_inf P0 _ _ _ _)).symm
    refine Finset.le_inf fun y hy => slabInf_le P0 _ y ?_
    have hy' := (Finset.mem_filter.mp hy).2
    rw [drop_last] at hy'
    have := congrArg (fun k : S2x512.Idx => (k 0).val) hy'
    exact this.trans h0

end Cert.KernelIdeal.Slabs

end
-- ==== Proof.KernelValue.lean ====
/-
  The kernel computes the specification.

  Grid point `t` stages slabs `2t` and `2t + 1` of the argument, and its body leaves in the output block, entry by entry,
  the requantization of the block's entry against the two-step extrema of the entry's slab WITHIN THE BLOCK. A block holds
  its two slabs whole, so a slab of the block has exactly the entries of slab `2t + b` of the array, and its extrema are that
  slab's extrema: what point `t` writes back is block `t` of the specification's result. The 128 blocks tile the array, so the
  result array ends holding the specification's result everywhere.
-/
import proofs.«174870_j55671366090843_1_alg».proof.Proof.Gen.KernelIdeal.Value
import proofs.«174870_j55671366090843_1_alg».proof.Proof.KernelSlabs

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Slabs Cert.QuantSpec

/-! ## A block's slabs are the array's -/

section Slabs

variable (X : S256x512x1024.Idx → EReal) (P : S2x512x1024.Idx → EReal) (t : Nat)
  (hP : ∀ (y : S2x512x1024.Idx) (i : S256x512x1024.Idx), (i 0).val = 2 * t + (y 0).val → (i 1).val = (y 1).val →
    (i 2).val = (y 2).val → P y = X i)

/-- The array index under a block index, for the block that starts at slab `2t`. -/
abbrev under (ht : t < 128) (y : S2x512x1024.Idx) : S256x512x1024.Idx := fun a => match a with
  | ⟨0, _⟩ => ⟨2 * t + (y 0).val, by have h : (y 0).val < 2 := (y 0).isLt; show 2 * t + (y 0).val < 256; omega⟩
  | ⟨1, _⟩ => ⟨(y 1).val, (y 1).isLt⟩
  | ⟨2, _⟩ => ⟨(y 2).val, (y 2).isLt⟩

/-- The block index over an array index of slab `2t + b`. -/
abbrev over (b : Nat) (hb : b < 2) (i : S256x512x1024.Idx) : S2x512x1024.Idx := fun a => match a with
  | ⟨0, _⟩ => ⟨b, hb⟩
  | ⟨1, _⟩ => ⟨(i 1).val, (i 1).isLt⟩
  | ⟨2, _⟩ => ⟨(i 2).val, (i 2).isLt⟩

include hP in
/-- Slab `b` of the block has the greatest entry of slab `2t + b` of the array. -/
theorem block_slabSup (ht : t < 128) (b : Nat) (hb : b < 2) : slabSup P b = slabSup X (2 * t + b) := by
  apply le_antisymm
  · refine slabSup_le P b _ fun y hy => ?_
    rw [hP y (under t ht y) rfl rfl rfl]
    exact le_slabSup X _ _ (by show 2 * t + (y 0).val = 2 * t + b; omega)
  · refine slabSup_le X _ _ fun i hi => ?_
    rw [← hP (over b hb i) i (by show (i 0).val = 2 * t + b; omega) rfl rfl]
    exact le_slabSup P b _ rfl

include hP in
/-- Slab `b` of the block has the least entry of slab `2t + b` of the array. -/
theorem block_slabInf (ht : t < 128) (b : Nat) (hb : b < 2) : slabInf P b = slabInf X (2 * t + b) := by
  apply le_antisymm
  · refine le_slabInf X _ _ fun i hi => ?_
    rw [← hP (over b hb i) i (by show (i 0).val = 2 * t + b; omega) rfl rfl]
    exact slabInf_le P b _ rfl
  · refine le_slabInf P b _ fun y hy => ?_
    rw [hP y (under t ht y) rfl rfl rfl]
    exact slabInf_le X _ _ (by show 2 * t + (y 0).val = 2 * t + b; omega)

include hP in
/-- So requantizing a block entry against its slab within the block is the specification's result at the array index
    under it. -/
theorem block_result (ht : t < 128) (y : S2x512x1024.Idx) (i : S256x512x1024.Idx) (h0 : (i 0).val = 2 * t + (y 0).val)
    (h1 : (i 1).val = (y 1).val) (h2 : (i 2).val = (y 2).val) :
    requant (P y) (slabInf P (y 0).val) (slabSup P (y 0).val) = result X i := by
  have hb : (y 0).val < 2 := (y 0).isLt
  unfold result
  rw [hP y i h0 h1 h2, block_slabSup X P t hP ht _ hb, block_slabInf X P t hP ht _ hb, h0]

end Slabs

/-! ## What the body leaves in the output block -/

theorem hz : (![0, 0, 0] : Fin 3 → Nat) = fun _ => 0 := funext fun a => by fin_cases a <;> rfl

/-- The body's output block, entry by entry: the block's entry requantized against its slab's extrema within the block. -/
theorem body_value (P : Vec Ideal S2x512x1024 .f32) (y : S2x512x1024.Idx) :
    out0_1 P y = requant (P y) (slabInf P (y 0).val) (slabSup P (y 0).val) := by
  unfold out0_1
  rw [View.ld_unit_zero (S := S2x512x1024) hz]
  refine (canon1_eq P y).trans ?_
  have e0 : ix1_0 y = y := funext fun a => match a with | ⟨0, _⟩ => rfl | ⟨1, _⟩ => rfl | ⟨2, _⟩ => rfl
  show requant (P (ix1_0 y)) _ _ = _
  rw [e0]
  exact congrArg₂ (requant (P y)) (min_of_line_minima P (ix1_1 y)) (max_of_line_maxima P (ix1_2 y))

/-! ## The blocks and the array -/

variable (m : (ℓ : Loc nD τ sig) → Buf (Elt Ideal) ℓ) (ρ : Dev nD → PrngReg)

/-- The printed index maps over the grid: point `t` reads and writes block `t` along the slabs, block 0 along the rest. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point `t` is slabs `2t`, `2t + 1` of the argument. -/
theorem iblk_apply (c : Dev nD) (t : Fin cfg0.N) (y : S2x512x1024.Idx) (i : S256x512x1024.Idx)
    (h0 : (i 0).val = 2 * t.val + (y 0).val) (h1 : (i 1).val = (y 1).val) (h2 : (i 2).val = (y 2).val) :
    (iblk m c 0 t : Vec Ideal S2x512x1024 .f32) y = (V m c main_arg0 : S256x512x1024.Idx → EReal) i := by
  obtain ⟨e0, e1, e2, -, -, -⟩ := idx_facts t
  unfold iblk
  rw [View.read_apply]
  show V m c main_arg0 _ = V m c main_arg0 _
  congr 1
  funext a
  apply Fin.ext
  match a with
  | ⟨0, _⟩ => show win0_0.index t 0 * 2 + 1 * (y 0).val = (i 0).val; rw [e0, h0]; omega
  | ⟨1, _⟩ => show win0_0.index t 1 * 512 + 1 * (y 1).val = (i 1).val; rw [e1, h1]; omega
  | ⟨2, _⟩ => show win0_0.index t 2 * 1024 + 1 * (y 2).val = (i 2).val; rw [e2, h2]; omega

theorem t_lt (t : Fin cfg0.N) : t.val < 128 := lt_of_lt_of_eq t.isLt (N_0 : cfg0.N = 128)

/-- WHAT POINT `t` WRITES BACK is block `t` of the specification's result of the argument. -/
theorem flushed_eq (c : Dev nD) (t : Fin cfg0.N) :
    (dats m 0 c).flushed 1 t = ((cfg0.win 1).blk t).view.read (Elt Ideal) (result (V m c main_arg0)) := by
  rw [flushed1]
  obtain ⟨-, -, -, e0, e1, e2⟩ := idx_facts t
  funext y
  show out0_1 (iblk m c 0 t) y = result (V m c main_arg0) (((cfg0.win 1).blk t).view.emb y)
  refine (body_value (iblk m c 0 t) y).trans ?_
  refine block_result (V m c main_arg0) (iblk m c 0 t) t.val (fun y i h0 h1 h2 => iblk_apply m c t y i h0 h1 h2) (t_lt t) y _ ?_ ?_ ?_
  · show win0_1.index t 0 * 2 + 1 * (y 0).val = 2 * t.val + (y 0).val; rw [e0]; omega
  · show win0_1.index t 1 * 512 + 1 * (y 1).val = (y 1).val; rw [e1]; omega
  · show win0_1.index t 2 * 1024 + 1 * (y 2).val = (y 2).val; rw [e2]; omega

/-- An index of the array is in point `t`'s block iff each coordinate is in the block's range on its axis. -/
theorem mem_blk (t : Fin cfg0.N) (i : S256x512x1024.Idx) :
    i ∈ ((cfg0.win 1).blk t).view.set ↔ ∀ a : Fin 3, win0_1.index t a * S2x512x1024.size a ≤ (i a).val ∧ (i a).val < win0_1.index t a * S2x512x1024.size a + S2x512x1024.size a := by
  show i ∈ ((View.whole main_v0).slice (win0_1.rect t)).set ↔ _
  rw [View.set_slice_whole, Rect.mem_set_unit]
  exact Iff.rfl

/-- Every index of the array lies in the block of the point its slab belongs to. -/
theorem cover (i : S256x512x1024.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 1024 := (i 2).isLt
  let t : Fin cfg0.N := ⟨(i 0).val / 2, by rw [show cfg0.N = 128 from N_0]; omega⟩
  obtain ⟨-, -, -, e0, e1, e2⟩ := idx_facts t
  have ht : t.val = (i 0).val / 2 := rfl
  refine ⟨t, flush0_1 t, ?_⟩
  rw [mem_blk]
  intro a
  match a with
  | ⟨0, _⟩ => show win0_1.index t 0 * 2 ≤ (i 0).val ∧ (i 0).val < win0_1.index t 0 * 2 + 2; rw [e0]; omega
  | ⟨1, _⟩ => show win0_1.index t 1 * 512 ≤ (i 1).val ∧ (i 1).val < win0_1.index t 1 * 512 + 512; rw [e1]; omega
  | ⟨2, _⟩ => show win0_1.index t 2 * 1024 ≤ (i 2).val ∧ (i 2).val < win0_1.index t 2 * 1024 + 1024; rw [e2]; omega

/-- THE RESULT ARRAY after the run is the specification's result of the argument as launched. -/
theorem final (c : Dev nD) :
    (dats m 0 c).arrAt 1 cfg0.N = result (m ((c : Thread nD τ).loc main_arg0)) :=
  (dats m 0 c).arrAt_eq_of_cover 1 (result (V m c main_arg0)) (fun t _ => flushed_eq m c t) cover

/-- The run, read: the result array at the specification's result of the argument, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Hand

end
-- ==== Proof.ReferenceValue.lean ====
/-
  The reference computes the specification.

  The reference takes each slab's greatest and least entry by one reduction over both inner axes: the supremum and the
  infimum over the indices with that leading coordinate. It then broadcasts them back over the slab and applies, entry
  by entry, the same chain of exact operations as the specification's `requant`; its quotients are the host's division,
  which on the extended reals is the same total division, and its rounding the same rounding to the nearest even.
-/
import proofs.«174870_j55671366090843_1_alg».proof.Proof.Gen.ReferenceIdeal.Read
import proofs.«174870_j55671366090843_1_alg».proof.Proof.LibFoldExtrema
import proofs.«174870_j55671366090843_1_alg».proof.Proof.QuantSpec

noncomputable section

namespace Cert.ReferenceIdeal.RefValue

open Cert.ReferenceIdeal Cert.ReferenceIdeal.Gen Cert.ReferenceIdeal.Read Idealize.ShloMosaic Cert.QuantSpec Cert.FoldExtrema

/-- An index of the array drops to slab `r` exactly when its leading coordinate is `r`'s. -/
theorem drop_eq_iff (i : S256x512x1024.Idx) (r : S256.Idx) :
    reducesTo_S256x512x1024_S256_d1_2.drop i = r ↔ (i 0).val = (r 0).val := by
  constructor
  · intro h; rw [← h]; exact (reducesTo_S256x512x1024_S256_d1_2.drop_apply_val_of_eq i 0 0).symm
  · intro h; funext a; apply Fin.ext
    match a with
    | ⟨0, _⟩ => exact (reducesTo_S256x512x1024_S256_d1_2.drop_apply_val_of_eq i 0 0).trans h

/-- The reference's maximum over both inner axes is the slab's greatest entry. -/
theorem slab_max (x0 : S256x512x1024.Idx → EReal) (r : S256.Idx) :
    val_main_v0 (F := Ideal) x0 r = slabSup x0 (r 0).val := by
  unfold val_main_v0 val_main_cst slabSup
  refine (hostReduce_max_eq_sup x0 _ _ r).trans ?_
  exact congrArg (fun s => Finset.sup s x0) (Finset.filter_congr fun i _ => drop_eq_iff i r)

/-- The reference's minimum over both inner axes is the slab's least entry. -/
theorem slab_min (x0 : S256x512x1024.Idx → EReal) (r : S256.Idx) :
    val_main_v2 (F := Ideal) x0 r = slabInf x0 (r 0).val := by
  unfold val_main_v2 val_main_cst_0 slabInf
  refine (hostReduce_min_eq_inf x0 _ _ r).trans ?_
  exact congrArg (fun s => Finset.inf s x0) (Finset.filter_congr fun i _ => drop_eq_iff i r)

/-- The broadcast column of slab maxima, read at a column index. -/
theorem hi_at (x0 : S256x512x1024.Idx → EReal) (k : S256x1x1.Idx) :
    val_main_v1 (F := Ideal) x0 k = slabSup x0 (k 0).val := by
  rw [val_main_v1_apply, slab_max]

/-- The broadcast column of slab minima, read at a column index. -/
theorem lo_at (x0 : S256x512x1024.Idx → EReal) (k : S256x1x1.Idx) :
    val_main_v3 (F := Ideal) x0 k = slabInf x0 (k 0).val := by
  rw [val_main_v3_apply, slab_min]

/-- The column of slab ranges, read at a column index. -/
theorem range_at (x0 : S256x512x1024.Idx → EReal) (k : S256x1x1.Idx) :
    val_main_v4 (F := Ideal) x0 k = slabSup x0 (k 0).val - slabInf x0 (k 0).val := by
  rw [val_main_v4_apply, hi_at, lo_at]
  rfl

/-- The reference's result, entry by entry, is the specification's. -/
theorem value_eq (x0 : S256x512x1024.Idx → EReal) : val_main_v26 (F := Ideal) x0 = result x0 := by
  funext i
  rw [val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_call1_v0_apply,
    range_at x0 (idx_main_v9 i), lo_at x0 (idx_main_v5 i)]
  rfl

end Cert.ReferenceIdeal.RefValue

end
-- ==== Proof.lean ====
/-
  Per-slab fake quantization followed by a clip at zero: the tiled kernel against the whole-array reference, on the
  extended reals.

  The argument is a [256, 512, 1024] array; a slab is the 512 × 1024 entries sharing a leading coordinate. Both programs
  map every entry `v` of a slab with least entry `lo` and greatest entry `hi` to

      max ( ((1000 · (round (254 · (v - lo) / (hi - lo) - 127) / 1000) + 127) · (hi - lo)) / 254 + lo , 0 ),

  operation for operation and constant for constant; they differ only in how a slab's extrema are taken and in how the
  work is cut up. The reference takes each extremum by one reduction over both inner axes of the whole array. The kernel
  works on blocks of two whole slabs, one block per grid point, and takes each extremum in two steps: along the last axis,
  then over the 512 line extrema. On the extended reals a maximum from -∞ is a supremum and a minimum from +∞ an infimum
  of finitely many numbers, and a supremum of suprema over the parts of a partition is the supremum of the whole, so the
  two agree for every input — the infinite ones included; no finiteness of the argument is used. Since a block holds its
  slabs whole, the extrema found inside a block are the array's, what a grid point writes back is its block of the
  common function, and the 128 blocks tile the result.

  The modules: `QuantSpec` states the common function (`result`); `LibFoldExtrema` reads the reductions as suprema and
  infima; `KernelSlabs` joins the kernel's two steps; `KernelValue` carries the body's block to the whole array over the
  generated blockwise run; `ReferenceValue` reads the reference's generated run as the same function. The three frames
  are the generated ones, and the idealization rewrote nothing, so there is nothing to preserve.
-/
import proofs.«174870_j55671366090843_1_alg».proof.Defs
import proofs.«174870_j55671366090843_1_alg».proof.Proof.Gen.Kernel
import proofs.«174870_j55671366090843_1_alg».proof.Proof.Gen.Kernel.Skeleton
import proofs.«174870_j55671366090843_1_alg».proof.Proof.Gen.Kernel.Launch
import proofs.«174870_j55671366090843_1_alg».proof.Proof.Gen.Kernel.Points
import proofs.«174870_j55671366090843_1_alg».proof.Proof.Gen.Kernel.Frame
import proofs.«174870_j55671366090843_1_alg».proof.Proof.Gen.KernelIdeal
import proofs.«174870_j55671366090843_1_alg».proof.Proof.Gen.KernelIdeal.Skeleton
import proofs.«174870_j55671366090843_1_alg».proof.Proof.Gen.KernelIdeal.Launch
import proofs.«174870_j55671366090843_1_alg».proof.Proof.Gen.KernelIdeal.Points
import proofs.«174870_j55671366090843_1_alg».proof.Proof.Gen.KernelIdeal.Frame
import proofs.«174870_j55671366090843_1_alg».proof.Proof.Gen.ReferenceIdeal
import proofs.«174870_j55671366090843_1_alg».proof.Proof.Gen.Pre_finite_inputs
import proofs.«174870_j55671366090843_1_alg».proof.Proof.Gen.KernelIdeal.Value
import proofs.«174870_j55671366090843_1_alg».proof.Proof.Gen.ReferenceIdeal.Run
import proofs.«174870_j55671366090843_1_alg».proof.Proof.Gen.ReferenceIdeal.Read
import proofs.«174870_j55671366090843_1_alg».proof.Proof.KernelValue
import proofs.«174870_j55671366090843_1_alg».proof.Proof.ReferenceValue
import Idealize.ShloMosaic.Adequacy
import Idealize.ShloMosaic.Init

noncomputable section

namespace Cert.Proof

open Idealize.ShloMosaic Idealize.SL.Sem

/-- The kernel as printed runs to the end and leaves its argument as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, the kernel's result array and the reference's both end holding the
    specification's `result` of that argument. -/
theorem algebraic : Cert.algebraic_KernelIdeal_ReferenceIdeal := by
  intro m ρ m' ρ' _ hagree
  refine ⟨fun c => Cert.QuantSpec.result (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefValue.value_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
